-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x64 : Shape := ⟨2, ![100000, 64]⟩
abbrev S10x32 : Shape := ⟨2, ![10, 32]⟩
abbrev S32 : Shape := ⟨1, ![32]⟩
abbrev S32x64 : Shape := ⟨2, ![32, 64]⟩
abbrev S64 : Shape := ⟨1, ![64]⟩
abbrev S100000x16 : Shape := ⟨2, ![100000, 16]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S32x64 .f32) (main_arg5 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x3 .f32) (main_arg1 : FVec F S100000x64 .f32) (main_arg2 : FVec F S10x32 .f32) (main_arg3 : FVec F S32 .f32) (main_arg4 : FVec F S32x64 .f32) (main_arg5 : FVec F S64 .f32) (main_arg6 : IVec S100000x16 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S10x32 .f32 := Host.absf main_arg2
  let main_cst_2 : FVec F S_ .f32 := constant S_ .f32 0x7F800000#32
  let main_v10 : FVec F S10x32 .f32 := broadcastInDim S10x32 ![] bcast_S_S10x32 main_cst_2
  let main_v11 : IVec S10x32 1 := cmpf .olt main_v9 main_v10
  let main_c_3 : IVec S_ 1 := constantI S_ 1 1#1
  let main_v12 : IVec S_ 1 := (fun x v => Host.reduce IntOp.andi x v reducesTo_S10x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S100000x3 : Shape := ⟨2, ![100000, 3]⟩
abbrev S100000x64 : Shape := ⟨2, ![100000, 64]⟩
abbrev S10x32 : Shape := ⟨2, ![10, 32]⟩
abbrev S32 : Shape := ⟨1, ![32]⟩
abbrev S32x64 : Shape := ⟨2, ![32, 64]⟩
abbrev S64 : Shape := ⟨1, ![64]⟩
abbrev S100000x16 : Shape := ⟨2, ![100000, 16]⟩
abbrev S_ : Shape := ⟨0, ![]⟩
abbrev S100000x16x1 : Shape := ⟨3, ![100000, 16, 1]⟩
abbrev S100000x16x3 : Shape := ⟨3, ![100000, 16, 3]⟩
abbrev S1x32 : Shape := ⟨2, ![1, 32]⟩
abbrev S1x64 : Shape := ⟨2, ![1, 64]⟩
abbrev S100000x16x128 : Shape := ⟨3, ![100000, 16, 128]⟩
abbrev S400x3 : Shape := ⟨2, ![400, 3]⟩
abbrev S400x16x3 : Shape := ⟨3, ![400, 16, 3]⟩
abbrev S400x64 : Shape := ⟨2, ![400, 64]⟩
abbrev S400x16x128 : Shape := ⟨3, ![400, 16, 128]⟩
abbrev S400x1x3 : Shape := ⟨3, ![400, 1, 3]⟩
abbrev S400x16 : Shape := ⟨2, ![400, 16]⟩
abbrev S400x16x1 : Shape := ⟨3, ![400, 16, 1]⟩
abbrev S400x16x10 : Shape := ⟨3, ![400, 16, 10]⟩
abbrev S6400x10 : Shape := ⟨2, ![6400, 10]⟩
abbrev S6400x32 : Shape := ⟨2, ![6400, 32]⟩
abbrev S6400x64 : Shape := ⟨2, ![6400, 64]⟩
abbrev S400x16x64 : Shape := ⟨3, ![400, 16, 64]⟩
abbrev S400x1x64 : Shape := ⟨3, ![400, 1, 64]⟩

abbrev nBuf : Space → Nat
  | .hbm => 19
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S10x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000x16, .i32⟩
  | .hbm, ⟨7, _⟩ => ⟨S_, .i32⟩
  | .hbm, ⟨8, _⟩ => ⟨S100000x16, .i32⟩
  | .hbm, ⟨9, _⟩ => ⟨S100000x16, .i1⟩
  | .hbm, ⟨10, _⟩ => ⟨S_, .i32⟩
  | .hbm, ⟨11, _⟩ => ⟨S100000x16, .i32⟩
  | .hbm, ⟨12, _⟩ => ⟨S100000x16, .i32⟩
  | .hbm, ⟨13, _⟩ => ⟨S100000x16, .i32⟩
  | .hbm, ⟨14, _⟩ => ⟨S100000x16x1, .i32⟩
  | .hbm, ⟨15, _⟩ => ⟨S100000x16x3, .f32⟩
  | .hbm, ⟨16, _⟩ => ⟨S1x32, .f32⟩
  | .hbm, ⟨17, _⟩ => ⟨S1x64, .f32⟩
  | .hbm, ⟨18, _⟩ => ⟨S100000x16x128, .f32⟩
  | .local _ .vmem, ⟨0, _⟩ => ⟨S400x3, .f32⟩
  | .local _ .vmem, ⟨1, _⟩ => ⟨S400x3, .f32⟩
  | .local _ .vmem, ⟨2, _⟩ => ⟨S400x16x3, .f32⟩
  | .local _ .vmem, ⟨3, _⟩ => ⟨S400x16x3, .f32⟩
  | .local _ .vmem, ⟨4, _⟩ => ⟨S400x64, .f32⟩
  | .local _ .vmem, ⟨5, _⟩ => ⟨S400x64, .f32⟩
  | .local _ .vmem, ⟨6, _⟩ => ⟨S10x32, .f32⟩
  | .local _ .vmem, ⟨7, _⟩ => ⟨S1x32, .f32⟩
  | .local _ .vmem, ⟨8, _⟩ => ⟨S32x64, .f32⟩
  | .local _ .vmem, ⟨9, _⟩ => ⟨S1x64, .f32⟩
  | .local _ .vmem, ⟨10, _⟩ => ⟨S400x16x128, .f32⟩
  | .local _ .vmem, ⟨11, _⟩ => ⟨S400x16x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  shapeCasts_S32_S1x32 : S32.ShapeCasts S1x32
  shapeCasts_S64_S1x64 : S64.ShapeCasts S1x64
  inb_S400x3_S400x3_0_0 : ∀ a, (![0, 0] : Fin 2 → Nat) a + S400x3.size a ≤ S400x3.size a
  h_S400x3 : 0 < S400x3.numel
  inb_S400x16x3_S400x16x3_0_0_0 : ∀ a, (![0, 0, 0] : Fin 3 → Nat) a + S400x16x3.size a ≤ S400x16x3.size a
  h_S400x16x3 : 0 < S400x16x3.numel
  shapeCasts_S400x16x3_S400x16x3 : S400x16x3.ShapeCasts S400x16x3
  shapeCasts_S400x3_S400x1x3 : S400x3.ShapeCasts S400x1x3
  shapeCasts_S400x1x3_S400x1x3 : S400x1x3.ShapeCasts S400x1x3
  broadcasts_S400x1x3_S400x16x3 : S400x1x3.Broadcasts S400x16x3
  reduces_S400x16x3_S400x16 : S400x16x3.Reduces [2] S400x16
  shapeCasts_S400x16_S400x16x1 : S400x16.ShapeCasts S400x16x1
  concatenates_S400x16x3_S400x16x3_S400x16x3_S400x16x1_S400x16x10_d2 : Shape.Concatenates [S400x16x3, S400x16x3, S400x16x3, S400x16x1] S400x16x10 2
  shapeCasts_S400x16x10_S6400x10 : S400x16x10.ShapeCasts S6400x10
  inb_S10x32_S10x32_0_0 : ∀ a, (![0, 0] : Fin 2 → Nat) a + S10x32.size a ≤ S10x32.size a
  h_S10x32 : 0 < S10x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  shapeCasts_S6400x64_S400x16x64 : S6400x64.ShapeCasts S400x16x64
  inb_S400x64_S400x64_0_0 : ∀ a, (![0, 0] : Fin 2 → Nat) a + S400x64.size a ≤ S400x64.size a
  h_S400x64 : 0 < S400x64.numel
  shapeCasts_S400x64_S400x1x64 : S400x64.ShapeCasts S400x1x64
  shapeCasts_S400x1x64_S400x1x64 : S400x1x64.ShapeCasts S400x1x64
  broadcasts_S400x1x64_S400x16x64 : S400x1x64.Broadcasts S400x16x64
  concatenates_S400x16x64_S400x16x64_S400x16x128_d2 : Shape.Concatenates [S400x16x64, S400x16x64] S400x16x128 2
  inb_S400x16x128_S400x16x128_0_0_0 : ∀ a, (![0, 0, 0] : Fin 3 → Nat) a + S400x16x128.size a ≤ S400x16x128.size a
  h_S400x16x128 : 0 < S400x16x128.numel
  gather_S100000x3_S100000x16x1_S100000x16x3_2_0_n_n_0_2_13_wf : GatherDims.WF S100000x3 S100000x16x1 S100000x16x3 [2] [0] [] [0] [] 2 ![1, 3]
  dot_S6400x10_S10x32_S6400x32_1_0_0_1_n_n_wf : DotDims.WF S6400x10 S10x32 S6400x32 [1] [0] [0] [1] [] []
  dot_S6400x32_S32x64_S6400x64_1_0_0_1_n_n_wf : DotDims.WF S6400x32 S32x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x3.size a ≤ S100000x3.size a
  hwx0_0 : ∀ i : grid0.Coords, EltTy.bits .f32 = 32 ∨ (Rect.block (s := S100000x3) S400x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x3.size a ≤ S100000x16x3.size a
  hwx0_1 : ∀ i : grid0.Coords, EltTy.bits .f32 = 32 ∨ (Rect.block (s := S100000x16x3) S400x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S100000x64.size a
  hwx0_2 : ∀ i : grid0.Coords, EltTy.bits .f32 = 32 ∨ (Rect.block (s := S100000x64) S400x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x32.size a ≤ S10x32.size a
  hwx0_3 : ∀ i : grid0.Coords, EltTy.bits .f32 = 32 ∨ (Rect.block (s := S10x32) S10x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x16x128.size a ≤ S100000x16x128.size a
  hwx0_7 : ∀ i : grid0.Coords, EltTy.bits .f32 = 32 ∨ (Rect.block (s := S100000x16x128) S400x16x128.size (cc0_transform_7 i) (hinb0_7 i)).WholeWords (EltTy.packing .f32)

variable [Facts₀]

def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def dot_S6400x10_S10x32_S6400x32_1_0_0_1_n_n : DotDims S6400x10 S10x32 S6400x32 where
  lhsContracting := [1]
  rhsContracting := [0]
  lhsNonContracting := [0]
  rhsNonContracting := [1]
  lhsBatch := []
  rhsBatch := []
  wf := dot_S6400x10_S10x32_S6400x32_1_0_0_1_n_n_wf
def dot_S6400x32_S32x64_S6400x64_1_0_0_1_n_n : DotDims S6400x32 S32x64 S6400x64 where
  lhsContracting := [1]
  rhsContracting := [0]
  lhsNonContracting := [0]
  rhsNonContracting := [1]
  lhsBatch := []
  rhsBatch := []
  wf := dot_S6400x32_S32x64_S6400x64_1_0_0_1_n_n_wf

abbrev win0_0 : Pipeline.Window sig grid0 :=
  Pipeline.Window.ofSpec (Memref.whole main_arg0) S400x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S400x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S400x16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x64 : Shape := ⟨2, ![100000, 64]⟩
abbrev S10x32 : Shape := ⟨2, ![10, 32]⟩
abbrev S32 : Shape := ⟨1, ![32]⟩
abbrev S32x64 : Shape := ⟨2, ![32, 64]⟩
abbrev S64 : Shape := ⟨1, ![64]⟩
abbrev S100000x16 : Shape := ⟨2, ![100000, 16]⟩
abbrev S100000x1x3 : Shape := ⟨3, ![100000, 1, 3]⟩
abbrev S100000x16x3 : Shape := ⟨3, ![100000, 16, 3]⟩
abbrev S_ : Shape := ⟨0, ![]⟩
abbrev S100000x16x1 : Shape := ⟨3, ![100000, 16, 1]⟩
abbrev S100000x16x10 : Shape := ⟨3, ![100000, 16, 10]⟩
abbrev S100000x16x32 : Shape := ⟨3, ![100000, 16, 32]⟩
abbrev S1x1x32 : Shape := ⟨3, ![1, 1, 32]⟩
abbrev S100000x16x64 : Shape := ⟨3, ![100000, 16, 64]⟩
abbrev S1x1x64 : Shape := ⟨3, ![1, 1, 64]⟩
abbrev S100000x1x64 : Shape := ⟨3, ![100000, 1, 64]⟩
abbrev S100000x16x128 : Shape := ⟨3, ![100000, 16, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S10x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000x16, .i32⟩
  | .hbm, ⟨7, _⟩ => ⟨S100000x1x3, .f32⟩
  | .hbm, ⟨8, _⟩ => ⟨S100000x16x3, .f32⟩
  | .hbm, ⟨9, _⟩ => ⟨S_, .i32⟩
  | .hbm, ⟨10, _⟩ => ⟨S100000x16, .i32⟩
  | .hbm, ⟨11, _⟩ => ⟨S100000x16, .i1⟩
  | .hbm, ⟨12, _⟩ => ⟨S_, .i32⟩
  | .hbm, ⟨13, _⟩ => ⟨S100000x16, .i32⟩
  | .hbm, ⟨14, _⟩ => ⟨S100000x16, .i32⟩
  | .hbm, ⟨15, _⟩ => ⟨S100000x16, .i32⟩
  | .hbm, ⟨16, _⟩ => ⟨S100000x16x1, .i32⟩
  | .hbm, ⟨17, _⟩ => ⟨S100000x16x3, .f32⟩
  | .hbm, ⟨18, _⟩ => ⟨S100000x16x3, .f32⟩
  | .hbm, ⟨19, _⟩ => ⟨S100000x16x3, .f32⟩
  | .hbm, ⟨20, _⟩ => ⟨S_, .f32⟩
  | .hbm, ⟨21, _⟩ => ⟨S100000x16, .f32⟩
  | .hbm, ⟨22, _⟩ => ⟨S100000x16x1, .f32⟩
  | .hbm, ⟨23, _⟩ => ⟨S100000x16x1, .f32⟩
  | .hbm, ⟨24, _⟩ => ⟨S100000x16x10, .f32⟩
  | .hbm, ⟨25, _⟩ => ⟨S100000x16x32, .f32⟩
  | .hbm, ⟨26, _⟩ => ⟨S1x1x32, .f32⟩
  | .hbm, ⟨27, _⟩ => ⟨S100000x16x32, .f32⟩
  | .hbm, ⟨28, _⟩ => ⟨S100000x16x32, .f32⟩
  | .hbm, ⟨29, _⟩ => ⟨S_, .f32⟩
  | .hbm, ⟨30, _⟩ => ⟨S100000x16x32, .f32⟩
  | .hbm, ⟨31, _⟩ => ⟨S100000x16x32, .f32⟩
  | .hbm, ⟨32, _⟩ => ⟨S100000x16x64, .f32⟩
  | .hbm, ⟨33, _⟩ => ⟨S1x1x64, .f32⟩
  | .hbm, ⟨34, _⟩ => ⟨S100000x16x64, .f32⟩
  | .hbm, ⟨35, _⟩ => ⟨S100000x16x64, .f32⟩
  | .hbm, ⟨36, _⟩ => ⟨S100000x1x64, .f32⟩
  | .hbm, ⟨37, _⟩ => ⟨S100000x16x64, .f32⟩
  | .hbm, ⟨38, _⟩ => ⟨S100000x16x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S100000x3_S100000x1x3_0_2 : S100000x3.BroadcastsInDim S100000x1x3 (![0, 2] : Fin 2 → Fin S100000x1x3.rank)
  bcast_S100000x1x3_S100000x16x3_0_1_2 : S100000x1x3.BroadcastsInDim S100000x16x3 (![0, 1, 2] : Fin 3 → Fin S100000x16x3.rank)
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16x3_S100000x16_d2 : S100000x16x3.ReducesTo [2] S100000x16
  h_S_ : 0 < S_.numel
  concatenates_S100000x16x3_S100000x16x3_S100000x16x3_S100000x16x1_S100000x16x10_d2 : Shape.Concatenates [S100000x16x3, S100000x16x3, S100000x16x3, S100000x16x1] S100000x16x10 2
  bcast_S32_S1x1x32_2 : S32.BroadcastsInDim S1x1x32 (![2] : Fin 1 → Fin S1x1x32.rank)
  bcast_S1x1x32_S100000x16x32_0_1_2 : S1x1x32.BroadcastsInDim S100000x16x32 (![0, 1, 2] : Fin 3 → Fin S100000x16x32.rank)
  bcast_S_S100000x16x32 : S_.BroadcastsInDim S100000x16x32 (![] : Fin 0 → Fin S100000x16x32.rank)
  bcast_S64_S1x1x64_2 : S64.BroadcastsInDim S1x1x64 (![2] : Fin 1 → Fin S1x1x64.rank)
  bcast_S1x1x64_S100000x16x64_0_1_2 : S1x1x64.BroadcastsInDim S100000x16x64 (![0, 1, 2] : Fin 3 → Fin S100000x16x64.rank)
  bcast_S100000x64_S100000x1x64_0_2 : S100000x64.BroadcastsInDim S100000x1x64 (![0, 2] : Fin 2 → Fin S100000x1x64.rank)
  bcast_S100000x1x64_S100000x16x64_0_1_2 : S100000x1x64.BroadcastsInDim S100000x16x64 (![0, 1, 2] : Fin 3 → Fin S100000x16x64.rank)
  concatenates_S100000x16x64_S100000x16x64_S100000x16x128_d2 : Shape.Concatenates [S100000x16x64, S100000x16x64] S100000x16x128 2
  gather_S100000x3_S100000x16x1_S100000x16x3_2_0_n_n_0_2_13_wf : GatherDims.WF S100000x3 S100000x16x1 S100000x16x3 [2] [0] [] [0] [] 2 ![1, 3]
  dot_S100000x16x10_S10x32_S100000x16x32_2_0_01_1_n_n_wf : DotDims.WF S100000x16x10 S10x32 S100000x16x32 [2] [0] [0, 1] [1] [] []
  dot_S100000x16x32_S32x64_S100000x16x64_2_0_01_1_n_n_wf : DotDims.WF S100000x16x32 S32x64 S100000x16x64 [2] [0] [0, 1] [1] [] []

variable [Facts₀]

def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def dot_S100000x16x10_S10x32_S100000x16x32_2_0_01_1_n_n : DotDims S100000x16x10 S10x32 S100000x16x32 where
  lhsContracting := [2]
  rhsContracting := [0]
  lhsNonContracting := [0, 1]
  rhsNonContracting := [1]
  lhsBatch := []
  rhsBatch := []
  wf := dot_S100000x16x10_S10x32_S100000x16x32_2_0_01_1_n_n_wf
def dot_S100000x16x32_S32x64_S100000x16x64_2_0_01_1_n_n : DotDims S100000x16x32 S32x64 S100000x16x64 where
  lhsContracting := [2]
  rhsContracting := [0]
  lhsNonContracting := [0, 1]
  rhsNonContracting := [1]
  lhsBatch := []
  rhsBatch := []
  wf := dot_S100000x16x32_S32x64_S100000x16x64_2_0_01_1_n_n_wf

class Facts : Prop extends Facts₀ where

variable [Facts]
-- ==== Proof.KStages.lean ====
/-
  The kernel body's arithmetic, cut into its four stages.

  One grid point works on a block of 400 points: their coordinates `[400, 3]`, their sixteen neighbours' coordinates
  `[400, 16, 3]` and their input features `[400, 64]`, with the two weight matrices and the two bias rows whole.
  `feats` lays the ten features of every (point, neighbour) pair out as `[400, 16, 10]`; `hidden` flattens the pairs to
  6400 rows and applies the first affine layer and the rectifier; `encoded` applies the second affine layer and folds the
  rows back to `[400, 16, 64]`; `own` repeats every point's input features over its sixteen neighbours. The body's result is
  `encoded` and `own` side by side along the last axis.
-/
import proofs.«164112_j8950711846139_2_alg».proof.Proof.Gen.KernelIdeal.Skeleton
import Idealize.ShloMosaic.PureOps.Ideal

noncomputable section

namespace Cert.KernelIdeal.Stages

open Idealize.ShloMosaic Cert.KernelIdeal Cert.KernelIdeal.Gen

/-- Every point's coordinates repeated over its sixteen neighbours. -/
def selfCoords (v0 : Vec Ideal S400x3 .f32) : FVec Ideal S400x16x3 .f32 :=
  broadcastTo S400x16x3 (shapeCast S400x1x3 (shapeCast S400x1x3 v0 shapeCasts_S400x3_S400x1x3) shapeCasts_S400x1x3_S400x1x3)
    broadcasts_S400x1x3_S400x16x3

/-- The neighbours' coordinates, as loaded. -/
def nbrCoords (v1 : Vec Ideal S400x16x3 .f32) : FVec Ideal S400x16x3 .f32 :=
  shapeCast S400x16x3 v1 shapeCasts_S400x16x3_S400x16x3

/-- Point minus neighbour, coordinate by coordinate. -/
def diff (v0 : Vec Ideal S400x3 .f32) (v1 : Vec Ideal S400x16x3 .f32) : FVec Ideal S400x16x3 .f32 :=
  subf (selfCoords v0) (nbrCoords v1)

/-- The Euclidean distance of every pair, kept as a last axis of extent one. -/
def dist (v0 : Vec Ideal S400x3 .f32) (v1 : Vec Ideal S400x16x3 .f32) : FVec Ideal S400x16x1 .f32 :=
  sqrt (shapeCast S400x16x1
    (multiReduction .add [2] S400x16 (mulf (diff v0 v1) (diff v0 v1)) 0x00000000#32 reduces_S400x16x3_S400x16 (.inl rfl) rfl)
    shapeCasts_S400x16_S400x16x1)

/-- The ten features of every pair. -/
def feats (v0 : Vec Ideal S400x3 .f32) (v1 : Vec Ideal S400x16x3 .f32) : FVec Ideal S400x16x10 .f32 :=
  concatenate S400x16x10 2 [⟨S400x16x3, selfCoords v0⟩, ⟨S400x16x3, nbrCoords v1⟩, ⟨S400x16x3, diff v0 v1⟩, ⟨S400x16x1, dist v0 v1⟩]
    concatenates_S400x16x3_S400x16x3_S400x16x3_S400x16x1_S400x16x10_d2

/-- The hidden layer over the 6400 flattened pairs. -/
def hidden (f : FVec Ideal S400x16x10 .f32) (v13 : Vec Ideal S10x32 .f32) (v17 : Vec Ideal S1x32 .f32) : FVec Ideal S6400x32 .f32 :=
  maximumf
    (addf
      (matmul dot_S6400x10_S10x32_S6400x32_1_0_0_1_n_n none
        (truncf .bf16 (shapeCast S6400x10 f shapeCasts_S400x16x10_S6400x10) bitsLt_bf16_f32)
        (truncf .bf16 v13 bitsLt_bf16_f32) (constant S6400x32 .f32 0x00000000#32))
      (broadcastTo S6400x32 (shapeCast S1x32 v17 shapeCasts_S1x32_S1x32) broadcasts_S1x32_S6400x32))
    (broadcast S6400x32 (Scalar.ofBits .f32 0x00000000#32))

/-- The encoding, folded back to one row per (point, neighbour). -/
def encoded (hd : FVec Ideal S6400x32 .f32) (v23 : Vec Ideal S32x64 .f32) (v27 : Vec Ideal S1x64 .f32) : FVec Ideal S400x16x64 .f32 :=
  shapeCast S400x16x64
    (addf
      (matmul dot_S6400x32_S32x64_S6400x64_1_0_0_1_n_n none
        (truncf .bf16 hd bitsLt_bf16_f32) (truncf .bf16 v23 bitsLt_bf16_f32) (constant S6400x64 .f32 0x00000000#32))
      (broadcastTo S6400x64 (shapeCast S1x64 v27 shapeCasts_S1x64_S1x64) broadcasts_S1x64_S6400x64))
    shapeCasts_S6400x64_S400x16x64

/-- Every point's input features repeated over its sixteen neighbours. -/
def own (v32 : Vec Ideal S400x64 .f32) : FVec Ideal S400x16x64 .f32 :=
  broadcastTo S400x16x64 (shapeCast S400x1x64 (shapeCast S400x1x64 v32 shapeCasts_S400x64_S400x1x64) shapeCasts_S400x1x64_S400x1x64)
    broadcasts_S400x1x64_S400x16x64

/-- The body's one payload is the four stages composed. -/
theorem pay_eq (v0 : Vec Ideal S400x3 .f32) (v1 : Vec Ideal S400x16x3 .f32) (v13 : Vec Ideal S10x32 .f32) (v17 : Vec Ideal S1x32 .f32)
    (v23 : Vec Ideal S32x64 .f32) (v27 : Vec Ideal S1x64 .f32) (v32 : Vec Ideal S400x64 .f32) :
    k0_pay1 (F := Ideal) v0 v1 v13 v17 v23 v27 v32
      = concatenate S400x16x128 2
          [⟨S400x16x64, encoded (hidden (feats v0 v1) v13 v17) v23 v27⟩, ⟨S400x16x64, own v32⟩]
          concatenates_S400x16x64_S400x16x64_S400x16x128_d2 := rfl

end Cert.KernelIdeal.Stages

end
-- ==== Proof.Row.lean ====
/-
  The per-row specification of the local spatial encoding.

  For one point with coordinates `co` and one of its neighbours with coordinates `nb` the encoder forms ten features:
  the point's three coordinates, the neighbour's three, their three differences, and the Euclidean distance
  `√(∑ e, (co e − nb e)²)`. A two-layer perceptron follows: `hid j = max (∑ c, cat c · W1 c j + b1 j) 0` and
  `enc d = ∑ j, hid j · W2 j d + b2 d`. The output row of 128 numbers is `enc` followed by the point's own 64 input
  features. Everything is on the extended reals; the two zero words (the sum's starting value on one side, the
  rectifier's floor on both) are kept as the float word they are printed as.
-/
import Idealize.ShloMosaic.PureOps.Ideal
import Idealize.ShloMosaic.Lib.ValueIdx

noncomputable section

open scoped BigOperators

namespace Cert.Encoding

open Idealize.ShloMosaic

/-- The squared Euclidean distance between a point and a neighbour. -/
def sqDist (co nb : Fin 3 → EReal) : EReal := ∑ e : Fin 3, (co e - nb e) * (co e - nb e)

/-- The ten features of a (point, neighbour) pair: coordinates, neighbour's coordinates, differences, distance. -/
def cat (co nb : Fin 3 → EReal) (c : Fin 10) : EReal :=
  if h3 : c.val < 3 then co ⟨c.val, h3⟩
  else if h6 : c.val < 6 then nb ⟨c.val - 3, by omega⟩
  else if h9 : c.val < 9 then co ⟨c.val - 6, by omega⟩ - nb ⟨c.val - 6, by omega⟩
  else Ideal.sqrt (sqDist co nb)

/-- The hidden layer: an affine map of the ten features, rectified at the zero word. -/
def hid (co nb : Fin 3 → EReal) (W1 : Fin 10 → Fin 32 → EReal) (b1 : Fin 32 → EReal) (j : Fin 32) : EReal :=
  max (∑ c : Fin 10, cat co nb c * W1 c j + b1 j) (Ideal.ofBits .f32 0x00000000#32)

/-- The encoding: an affine map of the hidden layer. -/
def enc (co nb : Fin 3 → EReal) (W1 : Fin 10 → Fin 32 → EReal) (b1 : Fin 32 → EReal)
    (W2 : Fin 32 → Fin 64 → EReal) (b2 : Fin 64 → EReal) (d : Fin 64) : EReal :=
  ∑ j : Fin 32, hid co nb W1 b1 j * W2 j d + b2 d

/-- One output row: the 64 encoded numbers, then the point's 64 input features. -/
def outRow (co nb : Fin 3 → EReal) (W1 : Fin 10 → Fin 32 → EReal) (b1 : Fin 32 → EReal)
    (W2 : Fin 32 → Fin 64 → EReal) (b2 : Fin 64 → EReal) (ft : Fin 64 → EReal) (d : Fin 128) : EReal :=
  if h : d.val < 64 then enc co nb W1 b1 W2 b2 ⟨d.val, h⟩ else ft ⟨d.val - 64, by omega⟩

theorem cat_lt3 (co nb : Fin 3 → EReal) (c : Fin 10) (h : c.val < 3) : cat co nb c = co ⟨c.val, h⟩ := by
  unfold cat; rw [dif_pos h]

theorem cat_lt6 (co nb : Fin 3 → EReal) (c : Fin 10) (h3 : 3 ≤ c.val) (h : c.val < 6) :
    cat co nb c = nb ⟨c.val - 3, by omega⟩ := by
  unfold cat; rw [dif_neg (by omega), dif_pos h]

theorem cat_lt9 (co nb : Fin 3 → EReal) (c : Fin 10) (h6 : 6 ≤ c.val) (h : c.val < 9) :
    cat co nb c = co ⟨c.val - 6, by omega⟩ - nb ⟨c.val - 6, by omega⟩ := by
  unfold cat; rw [dif_neg (by omega), dif_neg (by omega), dif_pos h]

theorem cat_eq9 (co nb : Fin 3 → EReal) (c : Fin 10) (h : 9 ≤ c.val) : cat co nb c = Ideal.sqrt (sqDist co nb) := by
  unfold cat; rw [dif_neg (by omega), dif_neg (by omega), dif_neg (by omega)]

theorem outRow_lt (co nb : Fin 3 → EReal) (W1 : Fin 10 → Fin 32 → EReal) (b1 : Fin 32 → EReal)
    (W2 : Fin 32 → Fin 64 → EReal) (b2 : Fin 64 → EReal) (ft : Fin 64 → EReal) (d : Fin 128) (h : d.val < 64) :
    outRow co nb W1 b1 W2 b2 ft d = enc co nb W1 b1 W2 b2 ⟨d.val, h⟩ := by
  unfold outRow; rw [dif_pos h]

theorem outRow_ge (co nb : Fin 3 → EReal) (W1 : Fin 10 → Fin 32 → EReal) (b1 : Fin 32 → EReal)
    (W2 : Fin 32 → Fin 64 → EReal) (b2 : Fin 64 → EReal) (ft : Fin 64 → EReal) (d : Fin 128) (h : 64 ≤ d.val) :
    outRow co nb W1 b1 W2 b2 ft d = ft ⟨d.val - 64, by omega⟩ := by
  unfold outRow; rw [dif_neg (by omega)]

end Cert.Encoding

end
-- ==== Proof.KFeats.lean ====
/-
  The ten features of a (point, neighbour) pair, read out of the block the kernel body forms.

  At point `p` of the block, neighbour `k`, feature `c`: the point's own coordinates were repeated over the neighbours
  (a cast to `[400, 1, 3]` and a broadcast), the neighbours' coordinates are as loaded, the difference is taken
  coordinate by coordinate, and the distance is the square root of the sum over the three coordinates of the squared
  differences (a sum along the last axis, then a cast that restores that axis with extent one). Joined along the
  last axis these are exactly the specification's `cat` of the two coordinate rows.
-/
import proofs.«164112_j8950711846139_2_alg».proof.Proof.KStages
import proofs.«164112_j8950711846139_2_alg».proof.Proof.Row
import Idealize.ShloMosaic.Lib.Pipeline.Value
import Idealize.ShloMosaic.Lib.ValueIdx
import Idealize.ShloMosaic.PureOps.Ideal.Laws

noncomputable section

open scoped BigOperators

namespace Cert.KernelIdeal.Stages

open Idealize.ShloMosaic Idealize.ShloMosaic.ValueIdx Cert.KernelIdeal Cert.KernelIdeal.Gen

/-- The repeated coordinates at (p, k, e) are the point's coordinate e. -/
theorem selfCoords_apply (v0 : Vec Ideal S400x3 .f32) (p : Fin 400) (k : Fin 16) (e : Fin 3) :
    selfCoords v0 (ix3 p k e) = v0 (ix2 p e) := by
  unfold selfCoords
  rw [shapeCast_self]
  refine (broadcastTo_apply _ broadcasts_S400x1x3_S400x16x3 (ix3 p k e) (ix3 p (0 : Fin 1) e) (fun a => ?_)).trans ?_
  · match a with
    | ⟨0, _⟩ => show p.val = if (400 : Nat) = 1 then 0 else p.val; rw [if_neg (by decide)]
    | ⟨1, _⟩ => show 0 = if (1 : Nat) = 1 then 0 else k.val; rw [if_pos rfl]
    | ⟨2, _⟩ => show e.val = if (3 : Nat) = 1 then 0 else e.val; rw [if_neg (by decide)]
  · exact shapeCast_apply v0 shapeCasts_S400x3_S400x1x3 (ix3 p (0 : Fin 1) e) (ix2 p e) (by
      rw [Shape.rowMajor_val_two, Shape.rowMajor_val_three]
      show p.val * 3 + e.val = (p.val * 1 + 0) * 3 + e.val
      omega)

/-- The neighbours' coordinates are as loaded. -/
theorem nbrCoords_eq (v1 : Vec Ideal S400x16x3 .f32) : nbrCoords v1 = v1 := by
  unfold nbrCoords
  exact shapeCast_self _ _

/-- The difference at (p, k, e). -/
theorem diff_apply (v0 : Vec Ideal S400x3 .f32) (v1 : Vec Ideal S400x16x3 .f32) (p : Fin 400) (k : Fin 16) (e : Fin 3) :
    diff v0 v1 (ix3 p k e) = v0 (ix2 p e) - v1 (ix3 p k e) := by
  unfold diff
  rw [subf_apply, selfCoords_apply, nbrCoords_eq]

/-- A sum along the last axis of a `[400, 16, 3]` vector, at (p, k): the sum over the three coordinates. -/
theorem sumLast_apply (x : FVec Ideal S400x16x3 .f32) (hφ : FKind.Formats .f32)
    (hacc : (0x00000000#32 : BitVec 32) = FKind.add.neutral .f32 hφ) (p : Fin 400) (k : Fin 16) :
    multiReduction .add [2] S400x16 x 0x00000000#32 reduces_S400x16x3_S400x16 hφ hacc (ix2 p k)
      = ∑ e : Fin 3, x (ix3 p k e) := by
  refine (Ideal.multiReduction_add_single x 0x00000000#32 reduces_S400x16x3_S400x16 hφ hacc (ix2 p k)).trans ?_
  refine Finset.sum_congr rfl fun e _ => congrArg x (funext fun a => Fin.ext ?_)
  match a with
  | ⟨0, _⟩ => rfl
  | ⟨1, _⟩ => rfl
  | ⟨2, _⟩ => rfl

/-- The distance at (p, k, ·) is the specification's, of the two coordinate rows. -/
theorem dist_apply (v0 : Vec Ideal S400x3 .f32) (v1 : Vec Ideal S400x16x3 .f32) (p : Fin 400) (k : Fin 16) (z : Fin 1) :
    dist v0 v1 (ix3 p k z)
      = Ideal.sqrt (Cert.Encoding.sqDist (fun e => v0 (ix2 p e)) (fun e => v1 (ix3 p k e))) := by
  unfold dist
  show Ideal.sqrt (shapeCast S400x16x1 _ shapeCasts_S400x16_S400x16x1 (ix3 p k z)) = _
  refine congrArg Ideal.sqrt ?_
  refine (shapeCast_apply _ shapeCasts_S400x16_S400x16x1 (ix3 p k z) (ix2 p k) (by
    rw [Shape.rowMajor_val_two, Shape.rowMajor_val_three]
    have hz := z.isLt
    show p.val * 16 + k.val = (p.val * 16 + k.val) * 1 + z.val
    omega)).trans ?_
  refine (sumLast_apply _ _ _ p k).trans ?_
  unfold Cert.Encoding.sqDist
  refine Finset.sum_congr rfl fun e _ => ?_
  rw [mulf_apply, diff_apply]

/-- The ten features at (p, k, c) are the specification's `cat` of the point's and the neighbour's coordinate rows. -/
theorem feats_apply (v0 : Vec Ideal S400x3 .f32) (v1 : Vec Ideal S400x16x3 .f32) (p : Fin 400) (k : Fin 16) (c : Fin 10) :
    feats v0 v1 (ix3 p k c) = Cert.Encoding.cat (fun e => v0 (ix2 p e)) (fun e => v1 (ix3 p k e)) c := by
  unfold feats
  have hc : Shape.Concatenates (List.map (·.1) ([⟨S400x16x3, selfCoords v0⟩, ⟨S400x16x3, nbrCoords v1⟩, ⟨S400x16x3, diff v0 v1⟩, ⟨S400x16x1, dist v0 v1⟩] : List ((s : Shape) × (s.Idx → Ideal .f32)))) S400x16x10 2 :=
    concatenates_S400x16x3_S400x16x3_S400x16x3_S400x16x1_S400x16x10_d2
  by_cases h3 : c.val < 3
  · rw [Cert.Encoding.cat_lt3 _ _ c h3]
    refine (concatenate_apply_piece (t := S400x16x10) 2 _ hc (ix3 p k c)
      0 (by show (0 : Nat) < 4; decide) S400x16x3 (selfCoords v0) rfl rfl 0 rfl (ix3 p k ⟨c.val, h3⟩) (fun b hb => ?_) (by show 0 + c.val = c.val; omega)).trans ?_
    · match b with
      | ⟨0, _⟩ => rfl
      | ⟨1, _⟩ => rfl
      | ⟨2, _⟩ => exact absurd rfl hb
    · exact selfCoords_apply v0 p k ⟨c.val, h3⟩
  · by_cases h6 : c.val < 6
    · rw [Cert.Encoding.cat_lt6 _ _ c (by omega) h6]
      refine (concatenate_apply_piece (t := S400x16x10) 2 _ hc (ix3 p k c)
        1 (by show (1 : Nat) < 4; decide) S400x16x3 (nbrCoords v1) rfl rfl 3 rfl (ix3 p k ⟨c.val - 3, by omega⟩) (fun b hb => ?_) (by show 3 + (c.val - 3) = c.val; omega)).trans ?_
      · match b with
        | ⟨0, _⟩ => rfl
        | ⟨1, _⟩ => rfl
        | ⟨2, _⟩ => exact absurd rfl hb
      · rw [nbrCoords_eq]
    · by_cases h9 : c.val < 9
      · rw [Cert.Encoding.cat_lt9 _ _ c (by omega) h9]
        refine (concatenate_apply_piece (t := S400x16x10) 2 _ hc (ix3 p k c)
          2 (by show (2 : Nat) < 4; decide) S400x16x3 (diff v0 v1) rfl rfl 6 rfl (ix3 p k ⟨c.val - 6, by omega⟩) (fun b hb => ?_) (by show 6 + (c.val - 6) = c.val; omega)).trans ?_
        · match b with
          | ⟨0, _⟩ => rfl
          | ⟨1, _⟩ => rfl
          | ⟨2, _⟩ => exact absurd rfl hb
        · exact diff_apply v0 v1 p k ⟨c.val - 6, by omega⟩
      · rw [Cert.Encoding.cat_eq9 _ _ c (by omega)]
        have hc10 := c.isLt
        refine (concatenate_apply_piece (t := S400x16x10) 2 _ hc (ix3 p k c)
          3 (by show (3 : Nat) < 4; decide) S400x16x1 (dist v0 v1) rfl rfl 9 rfl (ix3 p k ⟨c.val - 9, by omega⟩) (fun b hb => ?_) (by show 9 + (c.val - 9) = c.val; omega)).trans ?_
        · match b with
          | ⟨0, _⟩ => rfl
          | ⟨1, _⟩ => rfl
          | ⟨2, _⟩ => exact absurd rfl hb
        · exact dist_apply v0 v1 p k ⟨c.val - 9, by omega⟩

end Cert.KernelIdeal.Stages

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.KLayers.lean ====
/-
  The two affine layers of the kernel body, read at an index.

  The body flattens the `[400, 16]` (point, neighbour) pairs to 6400 rows, pair (p, k) becoming row `16 p + k`
  (same row-major position). Each layer is a plain matrix product into a zero matrix — at an entry the sum over the
  contracted coordinate of the products of the entries — plus a bias row repeated over the 6400 rows; the first layer is
  rectified at the zero word. The changes of float format around the products are the identity on the extended reals.
-/
import proofs.«164112_j8950711846139_2_alg».proof.Proof.KFeats
import proofs.«164112_j8950711846139_2_alg».proof.Proof.LibPlainProduct

noncomputable section

open scoped BigOperators

namespace Cert.KernelIdeal.Stages

open Idealize.ShloMosaic Idealize.ShloMosaic.ValueIdx Cert.KernelIdeal Cert.KernelIdeal.Gen

/-- The row of the flattened pairs that holds pair (p, k). -/
def pairRow (p : Fin 400) (k : Fin 16) : Fin 6400 :=
  ⟨p.val * 16 + k.val, by have hp := p.isLt; have hk := k.isLt; omega⟩

/-- The flattened features at (row of (p, k), c) are the features at (p, k, c). -/
theorem flat_apply (f : FVec Ideal S400x16x10 .f32) (p : Fin 400) (k : Fin 16) (c : Fin 10) :
    shapeCast S6400x10 f shapeCasts_S400x16x10_S6400x10 (ix2 (pairRow p k) c) = f (ix3 p k c) :=
  shapeCast_apply f shapeCasts_S400x16x10_S6400x10 (ix2 (pairRow p k) c) (ix3 p k c) (by
    rw [Shape.rowMajor_val_two, Shape.rowMajor_val_three]
    rfl)

/-- A bias row of 32 repeated over the 6400 rows. -/
theorem biasRow32_apply (v17 : Vec Ideal S1x32 .f32) (r : Fin 6400) (j : Fin 32) :
    broadcastTo S6400x32 (shapeCast S1x32 v17 shapeCasts_S1x32_S1x32) broadcasts_S1x32_S6400x32 (ix2 r j)
      = v17 (ix2 (0 : Fin 1) j) := by
  rw [shapeCast_self]
  exact broadcastTo_apply v17 broadcasts_S1x32_S6400x32 (ix2 r j) (ix2 (0 : Fin 1) j) (fun a => by
    match a with
    | ⟨0, _⟩ => show 0 = if (1 : Nat) = 1 then 0 else r.val; rw [if_pos rfl]
    | ⟨1, _⟩ => show j.val = if (32 : Nat) = 1 then 0 else j.val; rw [if_neg (by decide)])

/-- A bias row of 64 repeated over the 6400 rows. -/
theorem biasRow64_apply (v27 : Vec Ideal S1x64 .f32) (r : Fin 6400) (d : Fin 64) :
    broadcastTo S6400x64 (shapeCast S1x64 v27 shapeCasts_S1x64_S1x64) broadcasts_S1x64_S6400x64 (ix2 r d)
      = v27 (ix2 (0 : Fin 1) d) := by
  rw [shapeCast_self]
  exact broadcastTo_apply v27 broadcasts_S1x64_S6400x64 (ix2 r d) (ix2 (0 : Fin 1) d) (fun a => by
    match a with
    | ⟨0, _⟩ => show 0 = if (1 : Nat) = 1 then 0 else r.val; rw [if_pos rfl]
    | ⟨1, _⟩ => show d.val = if (64 : Nat) = 1 then 0 else d.val; rw [if_neg (by decide)])

/-- The first product at (r, j): the sum over the ten features. -/
theorem product1_apply (A : FVec Ideal S6400x10 .f32) (v13 : Vec Ideal S10x32 .f32) (r : Fin 6400) (j : Fin 32) :
    matmul dot_S6400x10_S10x32_S6400x32_1_0_0_1_n_n none (truncf .bf16 A bitsLt_bf16_f32) (truncf .bf16 v13 bitsLt_bf16_f32)
        (constant S6400x32 .f32 0x00000000#32) (ix2 r j)
      = ∑ c : Fin 10, A (ix2 r c) * v13 (ix2 c j) :=
  Cert.LibPlainProduct.matmul_plain_zero_apply (m := 6400) (n := 32) (k := 10) none
    (truncf .bf16 A bitsLt_bf16_f32) (truncf .bf16 v13 bitsLt_bf16_f32) r j

/-- The second product at (r, d): the sum over the 32 hidden units. -/
theorem product2_apply (H : FVec Ideal S6400x32 .f32) (v23 : Vec Ideal S32x64 .f32) (r : Fin 6400) (d : Fin 64) :
    matmul dot_S6400x32_S32x64_S6400x64_1_0_0_1_n_n none (truncf .bf16 H bitsLt_bf16_f32) (truncf .bf16 v23 bitsLt_bf16_f32)
        (constant S6400x64 .f32 0x00000000#32) (ix2 r d)
      = ∑ j : Fin 32, H (ix2 r j) * v23 (ix2 j d) :=
  Cert.LibPlainProduct.matmul_plain_zero_apply (m := 6400) (n := 64) (k := 32) none
    (truncf .bf16 H bitsLt_bf16_f32) (truncf .bf16 v23 bitsLt_bf16_f32) r d

/-- The hidden layer at (row of (p, k), j), over any features. -/
theorem hidden_apply (f : FVec Ideal S400x16x10 .f32) (v13 : Vec Ideal S10x32 .f32) (v17 : Vec Ideal S1x32 .f32)
    (p : Fin 400) (k : Fin 16) (j : Fin 32) :
    hidden f v13 v17 (ix2 (pairRow p k) j)
      = max (∑ c : Fin 10, f (ix3 p k c) * v13 (ix2 c j) + v17 (ix2 (0 : Fin 1) j)) (Ideal.ofBits .f32 0x00000000#32) := by
  unfold hidden
  rw [maximumf_apply, addf_apply, broadcast_apply, biasRow32_apply, product1_apply]
  refine congrArg₂ max (congrArg (· + _) (Finset.sum_congr rfl fun c _ => ?_)) rfl
  rw [flat_apply]

/-- The hidden layer of the body's own features is the specification's. -/
theorem hidden_feats_apply (v0 : Vec Ideal S400x3 .f32) (v1 : Vec Ideal S400x16x3 .f32) (v13 : Vec Ideal S10x32 .f32)
    (v17 : Vec Ideal S1x32 .f32) (p : Fin 400) (k : Fin 16) (j : Fin 32) :
    hidden (feats v0 v1) v13 v17 (ix2 (pairRow p k) j)
      = Cert.Encoding.hid (fun e => v0 (ix2 p e)) (fun e => v1 (ix3 p k e)) (fun c j => v13 (ix2 c j))
          (fun j => v17 (ix2 (0 : Fin 1) j)) j := by
  rw [hidden_apply]
  unfold Cert.Encoding.hid
  refine congrArg₂ max (congrArg (· + _) (Finset.sum_congr rfl fun c _ => ?_)) rfl
  rw [feats_apply]

/-- The encoding at (p, k, d), over any hidden layer. -/
theorem encoded_apply (hd : FVec Ideal S6400x32 .f32) (v23 : Vec Ideal S32x64 .f32) (v27 : Vec Ideal S1x64 .f32)
    (p : Fin 400) (k : Fin 16) (d : Fin 64) :
    encoded hd v23 v27 (ix3 p k d)
      = ∑ j : Fin 32, hd (ix2 (pairRow p k) j) * v23 (ix2 j d) + v27 (ix2 (0 : Fin 1) d) := by
  unfold encoded
  refine (shapeCast_apply _ shapeCasts_S6400x64_S400x16x64 (ix3 p k d) (ix2 (pairRow p k) d) (by
    rw [Shape.rowMajor_val_two, Shape.rowMajor_val_three]
    rfl)).trans ?_
  rw [addf_apply, biasRow64_apply, product2_apply]

/-- Every point's input features repeated over its neighbours, at (p, k, d). -/
theorem own_apply (v32 : Vec Ideal S400x64 .f32) (p : Fin 400) (k : Fin 16) (d : Fin 64) :
    own v32 (ix3 p k d) = v32 (ix2 p d) := by
  unfold own
  rw [shapeCast_self]
  refine (broadcastTo_apply _ broadcasts_S400x1x64_S400x16x64 (ix3 p k d) (ix3 p (0 : Fin 1) d) (fun a => ?_)).trans ?_
  · match a with
    | ⟨0, _⟩ => show p.val = if (400 : Nat) = 1 then 0 else p.val; rw [if_neg (by decide)]
    | ⟨1, _⟩ => show 0 = if (1 : Nat) = 1 then 0 else k.val; rw [if_pos rfl]
    | ⟨2, _⟩ => show d.val = if (64 : Nat) = 1 then 0 else d.val; rw [if_neg (by decide)]
  · exact shapeCast_apply v32 shapeCasts_S400x64_S400x1x64 (ix3 p (0 : Fin 1) d) (ix2 p d) (by
      rw [Shape.rowMajor_val_two, Shape.rowMajor_val_three]
      show p.val * 64 + d.val = (p.val * 1 + 0) * 64 + d.val
      omega)

end Cert.KernelIdeal.Stages

end
-- ==== Proof.Payload.lean ====
/-
  The kernel body's result at an index: one output row of the specification.

  At point `p` of the block, neighbour `k` and output position `d`, the body's result is the specification's `outRow`
  of the point's coordinate row, the neighbour's coordinate row, the weights, the bias rows and the point's feature row:
  the first 64 positions come from the encoding, the last 64 from the point's own features.
-/
import proofs.«164112_j8950711846139_2_alg».proof.Proof.KLayers

noncomputable section

open scoped BigOperators

namespace Cert.KernelIdeal.Stages

open Idealize.ShloMosaic Idealize.ShloMosaic.ValueIdx Cert.KernelIdeal Cert.KernelIdeal.Gen

/-- The encoding of the body's own hidden layer is the specification's. -/
theorem encoded_hidden_apply (v0 : Vec Ideal S400x3 .f32) (v1 : Vec Ideal S400x16x3 .f32) (v13 : Vec Ideal S10x32 .f32)
    (v17 : Vec Ideal S1x32 .f32) (v23 : Vec Ideal S32x64 .f32) (v27 : Vec Ideal S1x64 .f32) (p : Fin 400) (k : Fin 16) (d : Fin 64) :
    encoded (hidden (feats v0 v1) v13 v17) v23 v27 (ix3 p k d)
      = Cert.Encoding.enc (fun e => v0 (ix2 p e)) (fun e => v1 (ix3 p k e)) (fun c j => v13 (ix2 c j))
          (fun j => v17 (ix2 (0 : Fin 1) j)) (fun j d => v23 (ix2 j d)) (fun d => v27 (ix2 (0 : Fin 1) d)) d := by
  rw [encoded_apply]
  unfold Cert.Encoding.enc
  refine congrArg (· + _) (Finset.sum_congr rfl fun j _ => ?_)
  rw [hidden_feats_apply]

/-- The body's payload at (p, k, d). -/
theorem pay_apply (v0 : Vec Ideal S400x3 .f32) (v1 : Vec Ideal S400x16x3 .f32) (v13 : Vec Ideal S10x32 .f32)
    (v17 : Vec Ideal S1x32 .f32) (v23 : Vec Ideal S32x64 .f32) (v27 : Vec Ideal S1x64 .f32) (v32 : Vec Ideal S400x64 .f32)
    (p : Fin 400) (k : Fin 16) (d : Fin 128) :
    k0_pay1 (F := Ideal) v0 v1 v13 v17 v23 v27 v32 (ix3 p k d)
      = Cert.Encoding.outRow (fun e => v0 (ix2 p e)) (fun e => v1 (ix3 p k e)) (fun c j => v13 (ix2 c j))
          (fun j => v17 (ix2 (0 : Fin 1) j)) (fun j d => v23 (ix2 j d)) (fun d => v27 (ix2 (0 : Fin 1) d))
          (fun d => v32 (ix2 p d)) d := by
  rw [pay_eq]
  by_cases h : d.val < 64
  · rw [Cert.Encoding.outRow_lt _ _ _ _ _ _ _ d h]
    refine (concatenate_pair_apply_left (t := S400x16x128) 2 _ _ concatenates_S400x16x64_S400x16x64_S400x16x128_d2 (ix3 p k d) rfl
      (ix3 p k ⟨d.val, h⟩) (fun b => ?_)).trans ?_
    · match b with
      | ⟨0, _⟩ => rfl
      | ⟨1, _⟩ => rfl
      | ⟨2, _⟩ => rfl
    · exact encoded_hidden_apply v0 v1 v13 v17 v23 v27 p k ⟨d.val, h⟩
  · rw [Cert.Encoding.outRow_ge _ _ _ _ _ _ _ d (by omega)]
    refine (concatenate_pair_apply_right (t := S400x16x128) 2 _ _ concatenates_S400x16x64_S400x16x64_S400x16x128_d2 (ix3 p k d) rfl rfl
      (ix3 p k ⟨d.val - 64, by have := d.isLt; omega⟩) (fun b hb => ?_) (by show (d.val - 64) + 64 = d.val; omega)).trans ?_
    · match b with
      | ⟨0, _⟩ => rfl
      | ⟨1, _⟩ => rfl
      | ⟨2, _⟩ => exact absurd rfl hb
    · exact own_apply v32 p k ⟨d.val - 64, by have := d.isLt; omega⟩

end Cert.KernelIdeal.Stages

end
-- ==== Proof.Spec.lean ====
/-
  The whole result array as one function of the argument arrays.

  Entry (n, k, d) of the `[100000, 16, 128]` result is position `d` of the specification's output row for point `n` and
  its `k`-th neighbour: the row is computed from point n's coordinate row, the neighbour's coordinate row (the gathered
  array at (n, k, ·)), the two weight matrices, the two bias vectors and point n's feature row.
-/
import proofs.«164112_j8950711846139_2_alg».proof.Proof.Row

noncomputable section

namespace Cert.Encoding

open Idealize.ShloMosaic Idealize.ShloMosaic.ValueIdx

/-- The result array, index by index. -/
def G (coords : (⟨2, ![100000, 3]⟩ : Shape).Idx → EReal) (nbr : (⟨3, ![100000, 16, 3]⟩ : Shape).Idx → EReal)
    (feat : (⟨2, ![100000, 64]⟩ : Shape).Idx → EReal) (W1 : (⟨2, ![10, 32]⟩ : Shape).Idx → EReal) (b1 : Fin 32 → EReal)
    (W2 : (⟨2, ![32, 64]⟩ : Shape).Idx → EReal) (b2 : Fin 64 → EReal) : (⟨3, ![100000, 16, 128]⟩ : Shape).Idx → EReal :=
  fun i =>
    outRow (fun e => coords (ix2 (i 0 : Fin 100000) e)) (fun e => nbr (ix3 (i 0 : Fin 100000) (i 1 : Fin 16) e))
      (fun c j => W1 (ix2 c j)) b1 (fun j d => W2 (ix2 j d)) b2 (fun d => feat (ix2 (i 0 : Fin 100000) d)) (i 2 : Fin 128)

/-- At an index given by its coordinates. -/
theorem G_apply (coords : (⟨2, ![100000, 3]⟩ : Shape).Idx → EReal) (nbr : (⟨3, ![100000, 16, 3]⟩ : Shape).Idx → EReal)
    (feat : (⟨2, ![100000, 64]⟩ : Shape).Idx → EReal) (W1 : (⟨2, ![10, 32]⟩ : Shape).Idx → EReal) (b1 : Fin 32 → EReal)
    (W2 : (⟨2, ![32, 64]⟩ : Shape).Idx → EReal) (b2 : Fin 64 → EReal) (n : Fin 100000) (k : Fin 16) (d : Fin 128) :
    G coords nbr feat W1 b1 W2 b2 (ix3 n k d)
      = outRow (fun e => coords (ix2 n e)) (fun e => nbr (ix3 n k e)) (fun c j => W1 (ix2 c j)) b1 (fun j d => W2 (ix2 j d)) b2
          (fun d => feat (ix2 n d)) d := rfl

end Cert.Encoding

end
-- ==== Proof.Blocks.lean ====
/-
  From the blocks the grid points write to the whole result array.

  The grid has 250 points; point `t` fetches rows `400 t … 400 t + 399` of the coordinates, of the gathered neighbour
  coordinates and of the features, the weights and bias rows whole, and writes back rows `400 t … 400 t + 399` of the result.
  Row `p` of a point's block is row `400 t + p` of the array; what the point writes at (p, k, d) is the specification's output
  row for that array row. The 250 blocks cover the 100000 rows (row `r` lies in block `r / 400`), so after the run the
  result array is the specification's array of the arrays as the region finds them.
-/
import proofs.«164112_j8950711846139_2_alg».proof.Proof.Gen.KernelIdeal.Value
import proofs.«164112_j8950711846139_2_alg».proof.Proof.Payload
import proofs.«164112_j8950711846139_2_alg».proof.Proof.Spec

noncomputable section

namespace Cert.KernelIdeal.Bridge

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The specification's array of the arrays as the region finds them. -/
def GV (c : Dev nD) : S100000x16x128.Idx → EReal :=
  Cert.Encoding.G (V m c main_arg0) (V m c main_v6) (V m c main_arg1) (V m c main_arg2)
    (fun j => V m c main_v7 (ix2 (0 : Fin 1) j)) (V m c main_arg4) (fun d => V m c main_v8 (ix2 (0 : Fin 1) d))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 250 points: the three row-blocked inputs and the output move with the point
    along the rows and stay at zero on the other axes; the weights and bias rows stay at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The array row under row `p` of point `t`'s block. -/
def arrRow (t : Fin cfg0.N) (p : Fin 400) : Fin 100000 :=
  ⟨t.val * 400 + p.val, by
    have ht : t.val < 250 := lt_of_lt_of_eq t.isLt N_0
    have hp := p.isLt
    omega⟩

/-- The coordinates' block at a point, row p: array row `400 t + p`. -/
theorem read_coords (c : Dev nD) (t : Fin cfg0.N) (p : Fin 400) (e : Fin 3) :
    iblk m c 0 t (ix2 p e) = V m c main_arg0 (ix2 (arrRow t p) e) := by
  obtain ⟨h0, h1, -⟩ := idx_facts t
  show V m c main_arg0 (((cfg0.win 0).blk t).view.emb (ix2 p e)) = V m c main_arg0 (ix2 (arrRow t p) e)
  refine congrArg (V m c main_arg0) (funext fun a => Fin.ext ?_)
  match a with
  | ⟨0, _⟩ => show win0_0.index t (0 : Fin 2) * 400 + 1 * p.val = t.val * 400 + p.val; omega
  | ⟨1, _⟩ => show win0_0.index t (1 : Fin 2) * 3 + 1 * e.val = e.val; omega

/-- The gathered neighbours' block at a point, row p. -/
theorem read_nbr (c : Dev nD) (t : Fin cfg0.N) (p : Fin 400) (k : Fin 16) (e : Fin 3) :
    iblk m c 1 t (ix3 p k e) = V m c main_v6 (ix3 (arrRow t p) k e) := by
  obtain ⟨-, -, h0, h1, h2, -⟩ := idx_facts t
  show V m c main_v6 (((cfg0.win 1).blk t).view.emb (ix3 p k e)) = V m c main_v6 (ix3 (arrRow t p) k e)
  refine congrArg (V m c main_v6) (funext fun a => Fin.ext ?_)
  match a with
  | ⟨0, _⟩ => show win0_1.index t (0 : Fin 3) * 400 + 1 * p.val = t.val * 400 + p.val; omega
  | ⟨1, _⟩ => show win0_1.index t (1 : Fin 3) * 16 + 1 * k.val = k.val; omega
  | ⟨2, _⟩ => show win0_1.index t (2 : Fin 3) * 3 + 1 * e.val = e.val; omega

/-- The features' block at a point, row p. -/
theorem read_feat (c : Dev nD) (t : Fin cfg0.N) (p : Fin 400) (d : Fin 64) :
    iblk m c 2 t (ix2 p d) = V m c main_arg1 (ix2 (arrRow t p) d) := by
  obtain ⟨-, -, -, -, -, h0, h1, -⟩ := idx_facts t
  show V m c main_arg1 (((cfg0.win 2).blk t).view.emb (ix2 p d)) = V m c main_arg1 (ix2 (arrRow t p) d)
  refine congrArg (V m c main_arg1) (funext fun a => Fin.ext ?_)
  match a with
  | ⟨0, _⟩ => show win0_2.index t (0 : Fin 2) * 400 + 1 * p.val = t.val * 400 + p.val; omega
  | ⟨1, _⟩ => show win0_2.index t (1 : Fin 2) * 64 + 1 * d.val = d.val; omega

/-- The first weight matrix is fetched whole. -/
theorem read_W1 (c : Dev nD) (t : Fin cfg0.N) (a' : Fin 10) (j : Fin 32) :
    iblk m c 3 t (ix2 a' j) = V m c main_arg2 (ix2 a' j) := by
  obtain ⟨-, -, -, -, -, -, -, h0, h1, -⟩ := idx_facts t
  show V m c main_arg2 (((cfg0.win 3).blk t).view.emb (ix2 a' j)) = V m c main_arg2 (ix2 a' j)
  refine congrArg (V m c main_arg2) (funext fun a => Fin.ext ?_)
  match a with
  | ⟨0, _⟩ => show win0_3.index t (0 : Fin 2) * 10 + 1 * a'.val = a'.val; omega
  | ⟨1, _⟩ => show win0_3.index t (1 : Fin 2) * 32 + 1 * j.val = j.val; omega

/-- The first bias row is fetched whole. -/
theorem read_b1 (c : Dev nD) (t : Fin cfg0.N) (z : Fin 1) (j : Fin 32) :
    iblk m c 4 t (ix2 z j) = V m c main_v7 (ix2 z j) := by
  obtain ⟨-, -, -, -, -, -, -, -, -, h0, h1, -⟩ := idx_facts t
  show V m c main_v7 (((cfg0.win 4).blk t).view.emb (ix2 z j)) = V m c main_v7 (ix2 z j)
  refine congrArg (V m c main_v7) (funext fun a => Fin.ext ?_)
  match a with
  | ⟨0, _⟩ => show win0_4.index t (0 : Fin 2) * 1 + 1 * z.val = z.val; omega
  | ⟨1, _⟩ => show win0_4.index t (1 : Fin 2) * 32 + 1 * j.val = j.val; omega

/-- The second weight matrix is fetched whole. -/
theorem read_W2 (c : Dev nD) (t : Fin cfg0.N) (j : Fin 32) (d : Fin 64) :
    iblk m c 5 t (ix2 j d) = V m c main_arg4 (ix2 j d) := by
  obtain ⟨-, -, -, -, -, -, -, -, -, -, -, h0, h1, -⟩ := idx_facts t
  show V m c main_arg4 (((cfg0.win 5).blk t).view.emb (ix2 j d)) = V m c main_arg4 (ix2 j d)
  refine congrArg (V m c main_arg4) (funext fun a => Fin.ext ?_)
  match a with
  | ⟨0, _⟩ => show win0_5.index t (0 : Fin 2) * 32 + 1 * j.val = j.val; omega
  | ⟨1, _⟩ => show win0_5.index t (1 : Fin 2) * 64 + 1 * d.val = d.val; omega

/-- The second bias row is fetched whole. -/
theorem read_b2 (c : Dev nD) (t : Fin cfg0.N) (z : Fin 1) (d : Fin 64) :
    iblk m c 6 t (ix2 z d) = V m c main_v8 (ix2 z d) := by
  obtain ⟨-, -, -, -, -, -, -, -, -, -, -, -, -, h0, h1, -⟩ := idx_facts t
  show V m c main_v8 (((cfg0.win 6).blk t).view.emb (ix2 z d)) = V m c main_v8 (ix2 z d)
  refine congrArg (V m c main_v8) (funext fun a => Fin.ext ?_)
  match a with
  | ⟨0, _⟩ => show win0_6.index t (0 : Fin 2) * 1 + 1 * z.val = z.val; omega
  | ⟨1, _⟩ => show win0_6.index t (1 : Fin 2) * 64 + 1 * d.val = d.val; omega

/-- Entry (p, k, d) of the output block of point `t` lies at array index (400 t + p, k, d). -/
theorem emb_out (t : Fin cfg0.N) (p : Fin 400) (k : Fin 16) (d : Fin 128) :
    ((cfg0.win 7).blk t).view.emb (ix3 p k d) = ix3 (arrRow t p) k d := by
  obtain ⟨-, -, -, -, -, -, -, -, -, -, -, -, -, -, -, h0, h1, h2⟩ := idx_facts t
  refine funext fun a => Fin.ext ?_
  match a with
  | ⟨0, _⟩ => show win0_7.index t (0 : Fin 3) * 400 + 1 * p.val = t.val * 400 + p.val; omega
  | ⟨1, _⟩ => show win0_7.index t (1 : Fin 3) * 16 + 1 * k.val = k.val; omega
  | ⟨2, _⟩ => show win0_7.index t (2 : Fin 3) * 128 + 1 * d.val = d.val; omega

/-- What point `t` writes back is block `t` of the specification's array. -/
theorem flushed_eq (c : Dev nD) (t : Fin cfg0.N) :
    (dats m 0 c).flushed 7 t = ((cfg0.win 7).blk t).view.read (Elt Ideal) (GV m c) := by
  rw [Cert.KernelIdeal.Value.flushed7]
  unfold out0_7
  rw [View.canon_unit_zero hz3]
  simp only [View.ld_unit_zero (S := S400x3) hz2, View.ld_unit_zero (S := S400x16x3) hz3, View.ld_unit_zero (S := S10x32) hz2,
    View.ld_unit_zero (S := S1x32) hz2, View.ld_unit_zero (S := S32x64) hz2, View.ld_unit_zero (S := S1x64) hz2,
    View.ld_unit_zero (S := S400x64) hz2]
  funext j
  obtain ⟨p, k, d, rfl⟩ : ∃ (p : Fin 400) (k : Fin 16) (d : Fin 128), j = ix3 p k d := ⟨j 0, j 1, j 2, eq_ix3 j⟩
  show k0_pay1 (F := Ideal) (iblk m c 0 t) (iblk m c 1 t) (iblk m c 3 t) (iblk m c 4 t) (iblk m c 5 t) (iblk m c 6 t) (iblk m c 2 t) (ix3 p k d)
      = GV m c (((cfg0.win 7).blk t).view.emb (ix3 p k d))
  rw [emb_out t p k d,
    Cert.KernelIdeal.Stages.pay_apply (iblk m c 0 t) (iblk m c 1 t) (iblk m c 3 t) (iblk m c 4 t) (iblk m c 5 t) (iblk m c 6 t) (iblk m c 2 t) p k d]
  unfold GV
  rw [Cert.Encoding.G_apply]
  simp only [read_coords m c t, read_nbr m c t, read_feat m c t, read_W1 m c t, read_b1 m c t, read_W2 m c t, read_b2 m c t]

/-- An index of the array is in point `t`'s block iff each coordinate is in the block's range on its axis. -/
theorem mem_blk (t : Fin cfg0.N) (i : S100000x16x128.Idx) :
    i ∈ ((cfg0.win 7).blk t).view.set ↔ ∀ a : Fin 3, win0_7.index t a * S400x16x128.size a ≤ (i a).val ∧ (i a).val < win0_7.index t a * S400x16x128.size a + S400x16x128.size a := by
  show i ∈ ((View.whole main_v9).slice (win0_7.rect t)).set ↔ _
  rw [View.set_slice_whole, Rect.mem_set_unit]
  exact Iff.rfl

/-- Every index of the result array lies in some point's block: row `r` in block `r / 400`. -/
theorem cover (i : S100000x16x128.Idx) :
    ∃ t : Fin cfg0.N, (cfg0.win 7).flush t = true ∧ i ∈ ((cfg0.win 7).blk t).view.set := by
  have hi0 : (i 0).val < 100000 := (i 0).isLt
  have hi1 : (i 1).val < 16 := (i 1).isLt
  have hi2 : (i 2).val < 128 := (i 2).isLt
  have hN : grid0.N = 250 := N_0
  let t : Fin cfg0.N := ⟨(i 0).val / 400, by show (i 0).val / 400 < grid0.N; omega⟩
  obtain ⟨-, -, -, -, -, -, -, -, -, -, -, -, -, -, -, h0, h1, h2⟩ := idx_facts t
  have ht : t.val = (i 0).val / 400 := rfl
  refine ⟨t, flush0_7 t, ?_⟩
  rw [mem_blk]
  intro a
  match a with
  | ⟨0, _⟩ => show win0_7.index t (0 : Fin 3) * 400 ≤ (i 0).val ∧ (i 0).val < win0_7.index t (0 : Fin 3) * 400 + 400; omega
  | ⟨1, _⟩ => show win0_7.index t (1 : Fin 3) * 16 ≤ (i 1).val ∧ (i 1).val < win0_7.index t (1 : Fin 3) * 16 + 16; omega
  | ⟨2, _⟩ => show win0_7.index t (2 : Fin 3) * 128 ≤ (i 2).val ∧ (i 2).val < win0_7.index t (2 : Fin 3) * 128 + 128; omega

/-- After the run the result array is the specification's array of the arrays as the region finds them. -/
theorem final (c : Dev nD) : (dats m 0 c).arrAt 7 cfg0.N = GV m c :=
  (dats m 0 c).arrAt_eq_of_cover 7 (GV m c) (fun t _ => flushed_eq m c t) cover

end Cert.KernelIdeal.Bridge

end
-- ==== Proof.HostPrefix.lean ====
/-
  What the region finds in the arrays that @main writes before the launch.

  Three of the kernel's operands are not arguments but values @main computes first: the gathered neighbour
  coordinates (the neighbour indices normalised — a negative index has the number of points added — and the coordinate
  rows gathered at them), and the two bias vectors reshaped to single rows `[1, 32]` and `[1, 64]`. When the region is
  entered these arrays hold exactly those terms of the arguments, and a reshaped bias row at (0, j) is the vector at j.
-/
import proofs.«164112_j8950711846139_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen

/-- The neighbours' coordinates as @main gathers them from the coordinates and the neighbour indices. -/
def nbrArray (x0 : (⟨S100000x3, .f32⟩ : BufTy).Contents (Elt Ideal)) (x6 : (⟨S100000x16, .i32⟩ : BufTy).Contents (Elt Ideal)) :
    (⟨S100000x16x3, .f32⟩ : BufTy).Contents (Elt Ideal) :=
  Host.gather gather_S100000x3_S100000x16x1_S100000x16x3_2_0_n_n_0_2_13 x0
    (broadcastInDim S100000x16x1 ![0, 1] bcast_S100000x16_S100000x16x1_0_1
      (select
        (cmpi CmpIPredicate.slt x6 (broadcastInDim S100000x16 ![] bcast_S_S100000x16 (constantI S_ 32 0#32)))
        (addi x6 (broadcastInDim S100000x16 ![] bcast_S_S100000x16 (constantI S_ 32 100000#32)))
        x6))

variable (m : (ℓ : Loc nD τ sig) → Buf (Elt Ideal) ℓ)

/-- The gathered array at region entry. -/
theorem V_nbr (c : Dev nD) :
    (V m c main_v6 : S100000x16x3.Idx → EReal)
      = nbrArray (m ((c : Thread nD τ).loc main_arg0)) (m ((c : Thread nD τ).loc main_arg6)) := by
  dsimp only [Gen.V, Gen.hostOps0]
  after_results
  rfl

/-- The first bias row at region entry: the bias vector reshaped. -/
theorem V_bias1 (c : Dev nD) :
    (V m c main_v7 : S1x32.Idx → EReal) = shapeCast S1x32 (m ((c : Thread nD τ).loc main_arg3)) shapeCasts_S32_S1x32 := by
  dsimp only [Gen.V, Gen.hostOps0]
  after_results
  rfl

/-- The second bias row at region entry: the bias vector reshaped. -/
theorem V_bias2 (c : Dev nD) :
    (V m c main_v8 : S1x64.Idx → EReal) = shapeCast S1x64 (m ((c : Thread nD τ).loc main_arg5)) shapeCasts_S64_S1x64 := by
  dsimp only [Gen.V, Gen.hostOps0]
  after_results
  rfl

/-- A vector of 32 reshaped to one row, at (0, j). -/
theorem row32_apply (x : S32.Idx → EReal) (j : Fin 32) :
    shapeCast S1x32 x shapeCasts_S32_S1x32 (ix2 (0 : Fin 1) j) = x (ix1 j) :=
  shapeCast_apply x shapeCasts_S32_S1x32 (ix2 (0 : Fin 1) j) (ix1 j) (by
    rw [Shape.rowMajor_val_one, Shape.rowMajor_val_two]
    show j.val = 0 * 32 + j.val
    omega)

/-- A vector of 64 reshaped to one row, at (0, d). -/
theorem row64_apply (x : S64.Idx → EReal) (d : Fin 64) :
    shapeCast S1x64 x shapeCasts_S64_S1x64 (ix2 (0 : Fin 1) d) = x (ix1 d) :=
  shapeCast_apply x shapeCasts_S64_S1x64 (ix2 (0 : Fin 1) d) (ix1 d) (by
    rw [Shape.rowMajor_val_one, Shape.rowMajor_val_two]
    show d.val = 0 * 64 + d.val
    omega)

end Cert.KernelIdeal.Bridge

end
-- ==== Proof.KernelRun.lean ====
/-
  The kernel's run, read: the result array as the specification's array of the ARGUMENTS.

  The region finds the argument arrays as launched, the gathered neighbour coordinates and the two reshaped bias rows
  as @main computed them; substituting these in the array the blocks add up to gives the specification's `G` of the
  coordinates, the gathered array, the features, the two weight matrices and the two bias vectors.
-/
import proofs.«164112_j8950711846139_2_alg».proof.Proof.Blocks
import proofs.«164112_j8950711846139_2_alg».proof.Proof.HostPrefix

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The specification's array of the arguments as launched. -/
def GArgs (c : Dev nD) : S100000x16x128.Idx → EReal :=
  Cert.Encoding.G (m ((c : Thread nD τ).loc main_arg0))
    (nbrArray (m ((c : Thread nD τ).loc main_arg0)) (m ((c : Thread nD τ).loc main_arg6)))
    (m ((c : Thread nD τ).loc main_arg1)) (m ((c : Thread nD τ).loc main_arg2))
    (fun j => m ((c : Thread nD τ).loc main_arg3) (ix1 j)) (m ((c : Thread nD τ).loc main_arg4))
    (fun d => m ((c : Thread nD τ).loc main_arg5) (ix1 d))

/-- The array of the region-entry contents is the array of the arguments. -/
theorem GV_eq (c : Dev nD) : GV m c = GArgs m c := by
  unfold GV GArgs
  have hb1 : (fun j : Fin 32 => V m c main_v7 (ix2 (0 : Fin 1) j)) = fun j => m ((c : Thread nD τ).loc main_arg3) (ix1 j) :=
    funext fun j => (congrFun (V_bias1 m c) (ix2 (0 : Fin 1) j)).trans (row32_apply _ j)
  have hb2 : (fun d : Fin 64 => V m c main_v8 (ix2 (0 : Fin 1) d)) = fun d => m ((c : Thread nD τ).loc main_arg5) (ix1 d) :=
    funext fun d => (congrFun (V_bias2 m c) (ix2 (0 : Fin 1) d)).trans (row64_apply _ d)
  rw [hb1, hb2, V_main_arg0, V_main_arg1, V_main_arg2, V_main_arg4, V_nbr]

/-- Every weakly fair execution of the idealized kernel ends with the result array at the specification's array of the
    arguments, and the arguments unchanged. -/
theorem run : θ_run defs (onTc (τ := τ) (main (F := Ideal))) ⟨m, fun _ => 0, ρ⟩ fun r => ∀ c : Dev nD,
      r.2.mem ((c : Thread nD τ).loc main_v9) = GArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (GV_eq m c)), (h c).2⟩)
    (Cert.KernelIdeal.Value.run_blocks (F := Ideal) m ρ)

end Cert.KernelIdeal.Bridge

end
-- ==== Proof.RefFeats.lean ====
/-
  The reference's ten features of a (point, neighbour) pair, read at an index.

  The reference repeats every point's coordinates over its sixteen neighbours (two broadcasts), gathers the neighbours'
  coordinates, subtracts, and takes the Euclidean norm of the difference along the last axis keeping that axis: the
  square root of the starting value zero plus the sum of the three squared differences. Joined along the last axis these are
  the specification's `cat` of the point's coordinate row and the gathered neighbour's row. The gathered array is
  kept as it is: both programs compute it by the same operations on the same arguments.
-/
import proofs.«164112_j8950711846139_2_alg».proof.Proof.Gen.ReferenceIdeal.Read
import proofs.«164112_j8950711846139_2_alg».proof.Proof.Row

noncomputable section

open scoped BigOperators

namespace Cert.ReferenceIdeal.RefValue

open Idealize.ShloMosaic Idealize.ShloMosaic.ValueIdx Cert.ReferenceIdeal Cert.ReferenceIdeal.Gen Cert.ReferenceIdeal.Read

variable (x0 : (⟨S100000x3, .f32⟩ : BufTy).Contents (Elt Ideal)) (x6 : (⟨S100000x16, .i32⟩ : BufTy).Contents (Elt Ideal))

/-- The repeated coordinates at (n, k, e) are point n's coordinate e. -/
theorem selfCoords_apply (n : Fin 100000) (k : Fin 16) (e : Fin 3) :
    val_main_v1 (F := Ideal) x0 (ix3 n k e) = x0 (ix2 n e) := by
  rw [val_main_v1_apply, val_main_v0_apply]
  exact congrArg x0 (funext fun a => Fin.ext (by
    match a with
    | ⟨0, _⟩ => rfl
    | ⟨1, _⟩ => rfl))

/-- The difference at (n, k, e). -/
theorem diff_apply (n : Fin 100000) (k : Fin 16) (e : Fin 3) :
    val_main_v9 (F := Ideal) x0 x6 (ix3 n k e) = x0 (ix2 n e) - val_main_v8 (F := Ideal) x0 x6 (ix3 n k e) := by
  rw [val_main_v9_apply, selfCoords_apply]
  rfl

/-- The norm at (n, k, ·) is the specification's distance of the two coordinate rows. -/
theorem dist_apply (n : Fin 100000) (k : Fin 16) (z : Fin 1) :
    val_main_v10 (F := Ideal) x0 x6 (ix3 n k z)
      = Ideal.sqrt (Cert.Encoding.sqDist (fun e => x0 (ix2 n e)) (fun e => val_main_v8 (F := Ideal) x0 x6 (ix3 n k e))) := by
  rw [val_main_v10_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt ?_
  unfold Cert.Encoding.sqDist
  refine Finset.sum_congr rfl fun e _ => ?_
  have hi : idx_main_call0_v1 (idx_main_call0_v2 (ix3 n k z)) e = ix3 n k e := funext fun a => Fin.ext (by
    match a with
    | ⟨0, _⟩ => rfl
    | ⟨1, _⟩ => rfl
    | ⟨2, _⟩ => rfl)
  rw [hi, val_main_call0_v0_apply, diff_apply]
  rfl

/-- The reference's ten features at (n, k, c) are the specification's `cat`. -/
theorem feats_apply (n : Fin 100000) (k : Fin 16) (c : Fin 10) :
    val_main_v11 (F := Ideal) x0 x6 (ix3 n k c)
      = Cert.Encoding.cat (fun e => x0 (ix2 n e)) (fun e => val_main_v8 (F := Ideal) x0 x6 (ix3 n k e)) c := by
  unfold val_main_v11
  have hc : Shape.Concatenates (List.map (·.1) ([⟨S100000x16x3, val_main_v1 (F := Ideal) x0⟩, ⟨S100000x16x3, val_main_v8 (F := Ideal) x0 x6⟩, ⟨S100000x16x3, val_main_v9 (F := Ideal) x0 x6⟩, ⟨S100000x16x1, val_main_v10 (F := Ideal) x0 x6⟩] : List ((s : Shape) × (s.Idx → Ideal .f32)))) S100000x16x10 2 :=
    concatenates_S100000x16x3_S100000x16x3_S100000x16x3_S100000x16x1_S100000x16x10_d2
  by_cases h3 : c.val < 3
  · rw [Cert.Encoding.cat_lt3 _ _ c h3]
    refine (concatenate_apply_piece (t := S100000x16x10) 2 _ hc (ix3 n k c)
      0 (by show (0 : Nat) < 4; decide) S100000x16x3 (val_main_v1 (F := Ideal) x0) rfl rfl 0 rfl (ix3 n k ⟨c.val, h3⟩) (fun b hb => ?_) (by show 0 + c.val = c.val; omega)).trans ?_
    · match b with
      | ⟨0, _⟩ => rfl
      | ⟨1, _⟩ => rfl
      | ⟨2, _⟩ => exact absurd rfl hb
    · exact selfCoords_apply x0 n k ⟨c.val, h3⟩
  · by_cases h6 : c.val < 6
    · rw [Cert.Encoding.cat_lt6 _ _ c (by omega) h6]
      refine (concatenate_apply_piece (t := S100000x16x10) 2 _ hc (ix3 n k c)
        1 (by show (1 : Nat) < 4; decide) S100000x16x3 (val_main_v8 (F := Ideal) x0 x6) rfl rfl 3 rfl (ix3 n k ⟨c.val - 3, by omega⟩) (fun b hb => ?_) (by show 3 + (c.val - 3) = c.val; omega)).trans rfl
      match b with
      | ⟨0, _⟩ => rfl
      | ⟨1, _⟩ => rfl
      | ⟨2, _⟩ => exact absurd rfl hb
    · by_cases h9 : c.val < 9
      · rw [Cert.Encoding.cat_lt9 _ _ c (by omega) h9]
        refine (concatenate_apply_piece (t := S100000x16x10) 2 _ hc (ix3 n k c)
          2 (by show (2 : Nat) < 4; decide) S100000x16x3 (val_main_v9 (F := Ideal) x0 x6) rfl rfl 6 rfl (ix3 n k ⟨c.val - 6, by omega⟩) (fun b hb => ?_) (by show 6 + (c.val - 6) = c.val; omega)).trans ?_
        · match b with
          | ⟨0, _⟩ => rfl
          | ⟨1, _⟩ => rfl
          | ⟨2, _⟩ => exact absurd rfl hb
        · exact diff_apply x0 x6 n k ⟨c.val - 6, by omega⟩
      · rw [Cert.Encoding.cat_eq9 _ _ c (by omega)]
        have hc10 := c.isLt
        refine (concatenate_apply_piece (t := S100000x16x10) 2 _ hc (ix3 n k c)
          3 (by show (3 : Nat) < 4; decide) S100000x16x1 (val_main_v10 (F := Ideal) x0 x6) rfl rfl 9 rfl (ix3 n k ⟨c.val - 9, by omega⟩) (fun b hb => ?_) (by show 9 + (c.val - 9) = c.val; omega)).trans ?_
        · match b with
          | ⟨0, _⟩ => rfl
          | ⟨1, _⟩ => rfl
          | ⟨2, _⟩ => exact absurd rfl hb
        · exact dist_apply x0 x6 n k ⟨c.val - 9, by omega⟩

end Cert.ReferenceIdeal.RefValue

end
-- ==== Proof.RefLayers.lean ====
/-
  The reference's two affine layers and its output row, read at an index.

  Each `einsum` is a contraction over the last axis of the left operand and the first of the right: at (n, k, j) the
  sum over the contracted coordinate of the products of the entries. The bias vectors are broadcast over points and
  neighbours, the rectifier is the maximum with the zero word, the input features are broadcast over the neighbours, and the
  two halves are joined along the last axis. At every index this is the specification's `outRow` of point n's coordinate row,
  the gathered neighbour's row, the weights, the biases and point n's feature row.
-/
import proofs.«164112_j8950711846139_2_alg».proof.Proof.RefFeats

noncomputable section

open scoped BigOperators

namespace Cert.ReferenceIdeal.RefValue

open Idealize.ShloMosaic Idealize.ShloMosaic.ValueIdx Cert.ReferenceIdeal Cert.ReferenceIdeal.Gen Cert.ReferenceIdeal.Read

variable (x0 : (⟨S100000x3, .f32⟩ : BufTy).Contents (Elt Ideal)) (x1 : (⟨S100000x64, .f32⟩ : BufTy).Contents (Elt Ideal))
  (x2 : (⟨S10x32, .f32⟩ : BufTy).Contents (Elt Ideal)) (x3 : (⟨S32, .f32⟩ : BufTy).Contents (Elt Ideal))
  (x4 : (⟨S32x64, .f32⟩ : BufTy).Contents (Elt Ideal)) (x5 : (⟨S64, .f32⟩ : BufTy).Contents (Elt Ideal))
  (x6 : (⟨S100000x16, .i32⟩ : BufTy).Contents (Elt Ideal))

/-- The reference's hidden layer at (n, k, j) is the specification's. -/
theorem hidden_apply (n : Fin 100000) (k : Fin 16) (j : Fin 32) :
    val_main_v16 (F := Ideal) x0 x2 x3 x6 (ix3 n k j)
      = Cert.Encoding.hid (fun e => x0 (ix2 n e)) (fun e => val_main_v8 (F := Ideal) x0 x6 (ix3 n k e))
          (fun c j => x2 (ix2 c j)) (fun j => x3 (ix1 j)) j := by
  rw [val_main_v16_apply, val_main_v15_apply, val_main_v12_apply, val_main_v14_apply, val_main_v13_apply,
    val_main_call1_v0_apply, val_main_call1_cst_apply]
  unfold Cert.Encoding.hid
  show max (_ + _) (Ideal.ofBits .f32 0x00000000#32) = _
  refine congrArg₂ max (congrArg₂ (· + ·) (Finset.sum_congr rfl fun c _ => ?_) ?_) rfl
  · have hl : lidx_main_v12 (ix3 n k j) c = ix3 n k c := funext fun a => Fin.ext (by
      match a with
      | ⟨0, _⟩ => rfl
      | ⟨1, _⟩ => rfl
      | ⟨2, _⟩ => rfl)
    have hr : ridx_main_v12 (ix3 n k j) c = ix2 c j := funext fun a => Fin.ext (by
      match a with
      | ⟨0, _⟩ => rfl
      | ⟨1, _⟩ => rfl)
    rw [hl, hr, feats_apply]
  · exact congrArg x3 (funext fun a => Fin.ext (by
      match a with
      | ⟨0, _⟩ => rfl))

/-- The reference's encoding at (n, k, d) is the specification's. -/
theorem encoded_apply (n : Fin 100000) (k : Fin 16) (d : Fin 64) :
    val_main_v20 (F := Ideal) x0 x2 x3 x4 x5 x6 (ix3 n k d)
      = Cert.Encoding.enc (fun e => x0 (ix2 n e)) (fun e => val_main_v8 (F := Ideal) x0 x6 (ix3 n k e))
          (fun c j => x2 (ix2 c j)) (fun j => x3 (ix1 j)) (fun j d => x4 (ix2 j d)) (fun d => x5 (ix1 d)) d := by
  rw [val_main_v20_apply, val_main_v17_apply, val_main_v19_apply, val_main_v18_apply]
  unfold Cert.Encoding.enc
  show _ + _ = _
  refine congrArg₂ (· + ·) (Finset.sum_congr rfl fun j _ => ?_) ?_
  · have hl : lidx_main_v17 (ix3 n k d) j = ix3 n k j := funext fun a => Fin.ext (by
      match a with
      | ⟨0, _⟩ => rfl
      | ⟨1, _⟩ => rfl
      | ⟨2, _⟩ => rfl)
    have hr : ridx_main_v17 (ix3 n k d) j = ix2 j d := funext fun a => Fin.ext (by
      match a with
      | ⟨0, _⟩ => rfl
      | ⟨1, _⟩ => rfl)
    rw [hl, hr, hidden_apply]
  · exact congrArg x5 (funext fun a => Fin.ext (by
      match a with
      | ⟨0, _⟩ => rfl))

/-- Point n's input features repeated over its neighbours, at (n, k, d). -/
theorem own_apply (n : Fin 100000) (k : Fin 16) (d : Fin 64) :
    val_main_v22 (F := Ideal) x1 (ix3 n k d) = x1 (ix2 n d) := by
  rw [val_main_v22_apply, val_main_v21_apply]
  exact congrArg x1 (funext fun a => Fin.ext (by
    match a with
    | ⟨0, _⟩ => rfl
    | ⟨1, _⟩ => rfl))

/-- The reference's result at (n, k, d) is the specification's output row. -/
theorem result_apply (n : Fin 100000) (k : Fin 16) (d : Fin 128) :
    val_main_v23 (F := Ideal) x0 x1 x2 x3 x4 x5 x6 (ix3 n k d)
      = Cert.Encoding.outRow (fun e => x0 (ix2 n e)) (fun e => val_main_v8 (F := Ideal) x0 x6 (ix3 n k e))
          (fun c j => x2 (ix2 c j)) (fun j => x3 (ix1 j)) (fun j d => x4 (ix2 j d)) (fun d => x5 (ix1 d))
          (fun d => x1 (ix2 n d)) d := by
  unfold val_main_v23
  by_cases h : d.val < 64
  · rw [Cert.Encoding.outRow_lt _ _ _ _ _ _ _ d h]
    refine (concatenate_pair_apply_left (t := S100000x16x128) 2 _ _ concatenates_S100000x16x64_S100000x16x64_S100000x16x128_d2
      (ix3 n k d) rfl (ix3 n k ⟨d.val, h⟩) (fun b => ?_)).trans ?_
    · match b with
      | ⟨0, _⟩ => rfl
      | ⟨1, _⟩ => rfl
      | ⟨2, _⟩ => rfl
    · exact encoded_apply x0 x2 x3 x4 x5 x6 n k ⟨d.val, h⟩
  · rw [Cert.Encoding.outRow_ge _ _ _ _ _ _ _ d (by omega)]
    refine (concatenate_pair_apply_right (t := S100000x16x128) 2 _ _ concatenates_S100000x16x64_S100000x16x64_S100000x16x128_d2
      (ix3 n k d) rfl rfl (ix3 n k ⟨d.val - 64, by have := d.isLt; omega⟩) (fun b hb => ?_)
      (by show (d.val - 64) + 64 = d.val; omega)).trans ?_
    · match b with
      | ⟨0, _⟩ => rfl
      | ⟨1, _⟩ => rfl
      | ⟨2, _⟩ => exact absurd rfl hb
    · exact own_apply x1 n k ⟨d.val - 64, by have := d.isLt; omega⟩

end Cert.ReferenceIdeal.RefValue

end
-- ==== Proof.RefSpec.lean ====
/-
  The reference computes the specification's array.

  With the gathered neighbour coordinates kept as the array the reference itself forms, the reference's result is the
  specification's `G` of the arguments: the two arrays agree at every index (n, k, d).
-/
import proofs.«164112_j8950711846139_2_alg».proof.Proof.RefLayers
import proofs.«164112_j8950711846139_2_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-- The reference's result stage is `G` of its arguments. -/
theorem result_eq (x0 : (⟨S100000x3, .f32⟩ : BufTy).Contents (Elt Ideal)) (x1 : (⟨S100000x64, .f32⟩ : BufTy).Contents (Elt Ideal))
    (x2 : (⟨S10x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S100000x16, .i32⟩ : BufTy).Contents (Elt Ideal)) :
    val_main_v23 (F := Ideal) x0 x1 x2 x3 x4 x5 x6
      = Cert.Encoding.G x0 (val_main_v8 (F := Ideal) x0 x6) x1 x2 (fun j => x3 (ix1 j)) x4 (fun d => x5 (ix1 d)) := by
  funext i
  obtain ⟨n, k, d, rfl⟩ : ∃ (n : Fin 100000) (k : Fin 16) (d : Fin 128), i = ix3 n k d := ⟨i 0, i 1, i 2, eq_ix3 i⟩
  rw [result_apply, Cert.Encoding.G_apply]

end Cert.ReferenceIdeal.RefValue

end
-- ==== Proof.lean ====
/-
  The local spatial encoding kernel against its reference: the five claims.

  Both programs gather the sixteen neighbours' coordinates of each of the 100000 points by the same operations on the
  host, and from there compute, for every (point, neighbour) pair, ten features (coordinates, neighbour's coordinates,
  differences, Euclidean distance), a rectified affine layer to 32 units and an affine layer to 64, and lay the 64 encoded
  numbers beside the point's own 64 input features. The kernel does it 400 points at a time with the pairs flattened
  to rows and the two layers as matrix products into zero; the reference does it on whole arrays with two contractions.
  On the extended reals both are the same sums of the same products: every entry of either result is the
  specification's output row (Row, Spec) of the same rows of the arguments. No law beyond reading sums term by term is
  used, so the precondition is never opened.

  The three frames are the generated ones (the reference's is its generated run with the result dropped); the
  idealization rewrote nothing, so `preserves` is trivial; `algebraic` sets the kernel's run, read as the
  specification's array of the arguments (KernelRun), beside the reference's run, read as the same array (RefSpec).
-/
import proofs.«164112_j8950711846139_2_alg».proof.Defs
import proofs.«164112_j8950711846139_2_alg».proof.Proof.Gen.Kernel
import proofs.«164112_j8950711846139_2_alg».proof.Proof.Gen.Kernel.Skeleton
import proofs.«164112_j8950711846139_2_alg».proof.Proof.Gen.Kernel.Launch
import proofs.«164112_j8950711846139_2_alg».proof.Proof.Gen.Kernel.Points
import proofs.«164112_j8950711846139_2_alg».proof.Proof.Gen.Kernel.Frame
import proofs.«164112_j8950711846139_2_alg».proof.Proof.Gen.KernelIdeal
import proofs.«164112_j8950711846139_2_alg».proof.Proof.Gen.KernelIdeal.Skeleton
import proofs.«164112_j8950711846139_2_alg».proof.Proof.Gen.KernelIdeal.Launch
import proofs.«164112_j8950711846139_2_alg».proof.Proof.Gen.KernelIdeal.Points
import proofs.«164112_j8950711846139_2_alg».proof.Proof.Gen.KernelIdeal.Frame
import proofs.«164112_j8950711846139_2_alg».proof.Proof.Gen.ReferenceIdeal
import proofs.«164112_j8950711846139_2_alg».proof.Proof.Gen.Pre_finite_inputs
import proofs.«164112_j8950711846139_2_alg».proof.Proof.Gen.KernelIdeal.Value
import proofs.«164112_j8950711846139_2_alg».proof.Proof.Gen.ReferenceIdeal.Run
import proofs.«164112_j8950711846139_2_alg».proof.Proof.Gen.ReferenceIdeal.Read
import proofs.«164112_j8950711846139_2_alg».proof.Proof.KernelRun
import proofs.«164112_j8950711846139_2_alg».proof.Proof.RefSpec
import Idealize.ShloMosaic.Adequacy
import Idealize.ShloMosaic.Init

noncomputable section

namespace Cert.Proof

open Idealize.ShloMosaic Idealize.ShloMosaic.ValueIdx Idealize.SL.Sem

/-- The two programs gather the neighbours' coordinates by the same operations: the reference's gathered array is the
    kernel's, as a function of the coordinates and the neighbour indices. -/
theorem nbr_eq (x0 : (⟨Cert.ReferenceIdeal.S100000x3, .f32⟩ : BufTy).Contents (Elt Ideal))
    (x6 : (⟨Cert.ReferenceIdeal.S100000x16, .i32⟩ : BufTy).Contents (Elt Ideal)) :
    Cert.ReferenceIdeal.Read.val_main_v8 (F := Ideal) x0 x6 = Cert.KernelIdeal.Bridge.nbrArray x0 x6 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the specification's array of the arguments. -/
theorem algebraic : Cert.algebraic_KernelIdeal_ReferenceIdeal := by
  intro m ρ m' ρ' _ hagree
  refine ⟨fun c => Cert.KernelIdeal.Bridge.GArgs m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v23_eq, Cert.ReferenceIdeal.RefValue.result_eq, nbr_eq, e0, e1, e2, e3, e4, e5, e6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
